-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v28)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v28) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v32) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x256 : Shape := ⟨2, ![100000, 256]⟩
abbrev S2x300000 : Shape := ⟨2, ![2, 300000]⟩
abbrev S300000 : Shape := ⟨1, ![300000]⟩
abbrev S256x256 : Shape := ⟨2, ![256, 256]⟩
abbrev S256 : Shape := ⟨1, ![256]⟩
abbrev S_ : Shape := ⟨0, ![]⟩

class Facts : Prop where
  bcast_S_S100000x256 : S_.BroadcastsInDim S100000x256 (![] : Fin 0 → Fin S100000x256.rank)
  reducesTo_S100000x256_S_d0_1 : S100000x256.ReducesTo [0, 1] S_
  h_S_ : 0 < S_.numel
  bcast_S_S300000 : S_.BroadcastsInDim S300000 (![] : Fin 0 → Fin S300000.rank)
  reducesTo_S300000_S_d0 : S300000.ReducesTo [0] S_
  bcast_S_S256x256 : S_.BroadcastsInDim S256x256 (![] : Fin 0 → Fin S256x256.rank)
  reducesTo_S256x256_S_d0_1 : S256x256.ReducesTo [0, 1] S_
  bcast_S_S256 : S_.BroadcastsInDim S256 (![] : Fin 0 → Fin S256.rank)
  reducesTo_S256_S_d0 : S256.ReducesTo [0] S_

variable [Facts]

def fn_part1 {F : FTy → Type} [FloatOps F] (main_arg5 : FVec F S256x256 .f32) (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  let main_v19 : FVec F S256x256 .f32 := Host.absf main_arg5
  let main_cst_6 : FVec F S_ .f32 := constant S_ .f32 0x7F800000#32
  let main_v20 : FVec F S256x256 .f32 := broadcastInDim S256x256 ![] bcast_S_S256x256 main_cst_6
  let main_v21 : IVec S256x256 1 := cmpf .olt main_v19 main_v20
  let main_c_7 : IVec S_ 1 := constantI S_ 1 1#1
  let main_v22 : IVec S_ 1 := (fun x v => Host.reduce IntOp.andi x v reducesTo_S256x256_S_d0_1 h_S_) main_v21 main_c_7
  let main_v23 : IVec S_ 1 := andi main_v18 main_v22
  main_v23

def fn {F : FTy → Type} [FloatOps F] (main_arg0 : FVec F S100000x256 .f32) (main_arg1 : IVec S2x300000 32) (main_arg2 : FVec F S300000 .f32) (main_arg3 : FVec F S256x256 .f32) (main_arg4 : FVec F S256 .f32) (main_arg5 : FVec F S256x256 .f32) : IVec S_ 1 :=
  let main_v0 : FVec F S100000x256 .f32 := Host.absf main_arg0
  let main_cst : FVec F S_ .f32 := constant S_ .f32 0x7F800000#32
  let main_v1 : FVec F S100000x256 .f32 := broadcastInDim S100000x256 ![] bcast_S_S100000x256 main_cst
  let main_v2 : IVec S100000x256 1 := cmpf .olt main_v0 main_v1
  let main_c : IVec S_ 1 := constantI S_ 1 1#1
  let main_v3 : IVec S_ 1 := (fun x v => Host.reduce IntOp.andi x v reducesTo_S100000x256_S_d0_1 h_S_) main_v2 main_c
  let main_v4 : FVec F S300000 .f32 := Host.absf main_arg2
  let main_cst_0 : FVec F S_ .f32 := constant S_ .f32 0x7F800000#32
  let main_v5 : FVec F S300000 .f32 := broadcastInDim S300000 ![] bcast_S_S300000 main_cst_0
  let main_v6 : IVec S300000 1 := cmpf .olt main_v4 main_v5
  let main_c_1 : IVec S_ 1 := constantI S_ 1 1#1
  let main_v7 : IVec S_ 1 := (fun x v => Host.reduce IntOp.andi x v reducesTo_S300000_S_d0 h_S_) main_v6 main_c_1
  let main_v8 : IVec S_ 1 := andi main_v3 main_v7
  let main_v9 : FVec F S256x256 .f32 := Host.absf main_arg3
  let main_cst_2 : FVec F S_ .f32 := constant S_ .f32 0x7F800000#32
  let main_v10 : FVec F S256x256 .f32 := broadcastInDim S256x256 ![] bcast_S_S256x256 main_cst_2
  let main_v11 : IVec S256x256 1 := cmpf .olt main_v9 main_v10
  let main_c_3 : IVec S_ 1 := constantI S_ 1 1#1
  let main_v12 : IVec S_ 1 := (fun x v => Host.reduce IntOp.andi x v reducesTo_S256x256_S_d0_1 h_S_) main_v11 main_c_3
  let main_v13 : IVec S_ 1 := andi main_v8 main_v12
  let main_v14 : FVec F S256 .f32 := Host.absf main_arg4
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_arg5 main_v13 main_v16
-- ==== Kernel.lean ====
abbrev S100000x256 : Shape := ⟨2, ![100000, 256]⟩
abbrev S2x300000 : Shape := ⟨2, ![2, 300000]⟩
abbrev S300000 : Shape := ⟨1, ![300000]⟩
abbrev S256x256 : Shape := ⟨2, ![256, 256]⟩
abbrev S256 : Shape := ⟨1, ![256]⟩
abbrev S1x300000 : Shape := ⟨2, ![1, 300000]⟩
abbrev S_ : Shape := ⟨0, ![]⟩
abbrev S300000x1 : Shape := ⟨2, ![300000, 1]⟩
abbrev S300000x256 : Shape := ⟨2, ![300000, 256]⟩
abbrev S100000 : Shape := ⟨1, ![100000]⟩
abbrev S100000x1 : Shape := ⟨2, ![100000, 1]⟩
abbrev S1x256 : Shape := ⟨2, ![1, 256]⟩
abbrev S2000x256 : Shape := ⟨2, ![2000, 256]⟩

abbrev nBuf : Space → Nat
  | .hbm => 41
  | .vmem => 9
  | .smem => 0
  | _ => 0

abbrev bufTy : (tb : Table) → Fin (tcTables nBuf tb) → BufTy
  | .hbm, ⟨0, _⟩ => ⟨S100000x256, .f32⟩
  | .hbm, ⟨1, _⟩ => ⟨S2x300000, .i32⟩
  | .hbm, ⟨2, _⟩ => ⟨S300000, .f32⟩
  | .hbm, ⟨3, _⟩ => ⟨S256x256, .f32⟩
  | .hbm, ⟨4, _⟩ => ⟨S256, .f32⟩
  | .hbm, ⟨5, _⟩ => ⟨S256x256, .f32⟩
  | .hbm, ⟨6, _⟩ => ⟨S1x300000, .i32⟩
  | .hbm, ⟨7, _⟩ => ⟨S300000, .i32⟩
  | .hbm, ⟨8, _⟩ => ⟨S1x300000, .i32⟩
  | .hbm, ⟨9, _⟩ => ⟨S300000, .i32⟩
  | .hbm, ⟨10, _⟩ => ⟨S_, .i32⟩
  | .hbm, ⟨11, _⟩ => ⟨S300000, .i32⟩
  | .hbm, ⟨12, _⟩ => ⟨S300000, .i1⟩
  | .hbm, ⟨13, _⟩ => ⟨S_, .i32⟩
  | .hbm, ⟨14, _⟩ => ⟨S300000, .i32⟩
  | .hbm, ⟨15, _⟩ => ⟨S300000, .i32⟩
  | .hbm, ⟨16, _⟩ => ⟨S300000, .i32⟩
  | .hbm, ⟨17, _⟩ => ⟨S300000x1, .i32⟩
  | .hbm, ⟨18, _⟩ => ⟨S300000x256, .f32⟩
  | .hbm, ⟨19, _⟩ => ⟨S_, .f32⟩
  | .hbm, ⟨20, _⟩ => ⟨S100000x256, .f32⟩
  | .hbm, ⟨21, _⟩ => ⟨S300000x1, .i32⟩
  | .hbm, ⟨22, _⟩ => ⟨S100000x256, .f32⟩
  | .hbm, ⟨23, _⟩ => ⟨S_, .f32⟩
  | .hbm, ⟨24, _⟩ => ⟨S300000, .f32⟩
  | .hbm, ⟨25, _⟩ => ⟨S_, .f32⟩
  | .hbm, ⟨26, _⟩ => ⟨S100000, .f32⟩
  | .hbm, ⟨27, _⟩ => ⟨S300000x1, .i32⟩
  | .hbm, ⟨28, _⟩ => ⟨S100000, .f32⟩
  | .hbm, ⟨29, _⟩ => ⟨S_, .f32⟩
  | .hbm, ⟨30, _⟩ => ⟨S100000, .f32⟩
  | .hbm, ⟨31, _⟩ => ⟨S100000, .f32⟩
  | .hbm, ⟨32, _⟩ => ⟨S100000x1, .f32⟩
  | .hbm, ⟨33, _⟩ => ⟨S100000x256, .f32⟩
  | .hbm, ⟨34, _⟩ => ⟨S100000x256, .f32⟩
  | .hbm, ⟨35, _⟩ => ⟨S256x256, .f32⟩
  | .hbm, ⟨36, _⟩ => ⟨S256x256, .bf16⟩
  | .hbm, ⟨37, _⟩ => ⟨S256x256, .f32⟩
  | .hbm, ⟨38, _⟩ => ⟨S256x256, .bf16⟩
  | .hbm, ⟨39, _⟩ => ⟨S1x256, .f32⟩
  | .hbm, ⟨40, _⟩ => ⟨S100000x256, .f32⟩
  | .local _ .vmem, ⟨0, _⟩ => ⟨S2000x256, .f32⟩
  | .local _ .vmem, ⟨1, _⟩ => ⟨S2000x256, .f32⟩
  | .local _ .vmem, ⟨2, _⟩ => ⟨S2000x256, .f32⟩
  | .local _ .vmem, ⟨3, _⟩ => ⟨S2000x256, .f32⟩
  | .local _ .vmem, ⟨4, _⟩ => ⟨S256x256, .bf16⟩
  | .local _ .vmem, ⟨5, _⟩ => ⟨S1x256, .f32⟩
  | .local _ .vmem, ⟨6, _⟩ => ⟨S256x256, .bf16⟩
  | .local _ .vmem, ⟨7, _⟩ => ⟨S2000x256, .f32⟩
  | .local _ .vmem, ⟨8, _⟩ => ⟨S2000x256, .f32⟩
  | _, _ => ⟨S100000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_c : Ref sig .tc := ⟨.hbm, 10, rfl⟩
abbrev main_v4 : Ref sig .tc := ⟨.hbm, 11, rfl⟩
abbrev main_v5 : Ref sig .tc := ⟨.hbm, 12, rfl⟩
abbrev main_c_0 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_1 : Ref sig .tc := ⟨.hbm, 23, rfl⟩
abbrev main_v14 : Ref sig .tc := ⟨.hbm, 24, rfl⟩
abbrev main_cst_2 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_3 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S256x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256x256 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S2000x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  slices_S2x300000_S1x300000_0_0 : S2x300000.Slices ![0, 0] S1x300000
  shapeCasts_S1x300000_S300000 : S1x300000.ShapeCasts S300000
  slices_S2x300000_S1x300000_1_0 : S2x300000.Slices ![1, 0] S1x300000
  bcast_S_S300000 : S_.BroadcastsInDim S300000 (![] : Fin 0 → Fin S300000.rank)
  bcast_S300000_S300000x1_0 : S300000.BroadcastsInDim S300000x1 (![0] : Fin 1 → Fin S300000x1.rank)
  bcast_S_S100000x256 : S_.BroadcastsInDim S100000x256 (![] : Fin 0 → Fin S100000x256.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x256_0_1 : S100000x1.BroadcastsInDim S100000x256 (![0, 1] : Fin 2 → Fin S100000x256.rank)
  transposes_S256x256_S256x256_1_0 : S256x256.Transposes [1, 0] S256x256
  bitsLt_bf16_f32 : FTy.bits .bf16 < FTy.bits .f32
  shapeCasts_S256_S1x256 : S256.ShapeCasts S1x256
  inb_S2000x256_S2000x256_0_0 : ∀ a, (![0, 0] : Fin 2 → Nat) a + S2000x256.size a ≤ S2000x256.size a
  h_S2000x256 : 0 < S2000x256.numel
  shapeCasts_S2000x256_S2000x256 : S2000x256.ShapeCasts S2000x256
  inb_S256x256_S256x256_0_0 : ∀ a, (![0, 0] : Fin 2 → Nat) a + S256x256.size a ≤ S256x256.size a
  h_S256x256 : 0 < S256x256.numel
  shapeCasts_S256x256_S256x256 : S256x256.ShapeCasts S256x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S2000x256 : S1x256.Broadcasts S2000x256
  gather_S100000x256_S300000x1_S300000x256_1_0_n_n_0_1_1256_wf : GatherDims.WF S100000x256 S300000x1 S300000x256 [1] [0] [] [0] [] 1 ![1, 256]
  scatter_S100000x256_S300000x1_S300000x256_1_0_0_1_wf : ScatterDims.WF S100000x256 S300000x1 S300000x256 [1] [0] [0] 1
  scatter_S100000_S300000x1_S300000_n_0_0_1_wf : ScatterDims.WF S100000 S300000x1 S300000 [] [0] [0] 1
  dot_S2000x256_S256x256_S2000x256_1_0_0_1_n_n_wf : DotDims.WF S2000x256 S256x256 S2000x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x256.size a ≤ S100000x256.size a
  hwx0_0 : ∀ i : grid0.Coords, EltTy.bits .f32 = 32 ∨ (Rect.block (s := S100000x256) S2000x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x256.size a ≤ S100000x256.size a
  hwx0_1 : ∀ i : grid0.Coords, EltTy.bits .f32 = 32 ∨ (Rect.block (s := S100000x256) S2000x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256x256.size a ≤ S256x256.size a
  hwx0_2 : ∀ i : grid0.Coords, EltTy.bits .bf16 = 32 ∨ (Rect.block (s := S256x256) S256x256.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x256.size a ≤ S1x256.size a
  hwx0_3 : ∀ i : grid0.Coords, EltTy.bits .f32 = 32 ∨ (Rect.block (s := S1x256) S1x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S256x256.size a ≤ S256x256.size a
  hwx0_4 : ∀ i : grid0.Coords, EltTy.bits .bf16 = 32 ∨ (Rect.block (s := S256x256) S256x256.size (cc0_transform_4 i) (hinb0_4 i)).WholeWords (EltTy.packing .bf16)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2000x256.size a ≤ S100000x256.size a
  hwx0_5 : ∀ i : grid0.Coords, EltTy.bits .f32 = 32 ∨ (Rect.block (s := S100000x256) S2000x256.size (cc0_transform_5 i) (hinb0_5 i)).WholeWords (EltTy.packing .f32)

variable [Facts₀]

def gather_S100000x256_S300000x1_S300000x256_1_0_n_n_0_1_1256 : GatherDims S100000x256 S300000x1 S300000x256 where
  offsetDims := [1]
  collapsedSliceDims := [0]
  operandBatchingDims := []
  startIndicesBatchingDims := []
  startIndexMap := [0]
  indexVectorDim := 1
  sliceSizes := ![1, 256]
  wf := gather_S100000x256_S300000x1_S300000x256_1_0_n_n_0_1_1256_wf
def scatter_S100000x256_S300000x1_S300000x256_1_0_0_1 : ScatterDims S100000x256 S300000x1 S300000x256 where
  updateWindowDims := [1]
  insertedWindowDims := [0]
  scatterDimsToOperandDims := [0]
  indexVectorDim := 1
  wf := scatter_S100000x256_S300000x1_S300000x256_1_0_0_1_wf
def scatter_S100000_S300000x1_S300000_n_0_0_1 : ScatterDims S100000 S300000x1 S300000 where
  updateWindowDims := []
  insertedWindowDims := [0]
  scatterDimsToOperandDims := [0]
  indexVectorDim := 1
  wf := scatter_S100000_S300000x1_S300000_n_0_0_1_wf
def dot_S2000x256_S256x256_S2000x256_1_0_0_1_n_n : DotDims S2000x256 S256x256 S2000x256 where
  lhsContracting := [1]
  rhsContracting := [0]
  lhsNonContracting := [0]
  rhsNonContracting := [1]
  lhsBatch := []
  rhsBatch := []
  wf := dot_S2000x256_S256x256_S2000x256_1_0_0_1_n_n_wf

abbrev win0_0 : Pipeline.Window sig grid0 :=
  Pipeline.Window.ofSpec (Memref.whole main_v22) S2000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S2000x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v24) S256x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v27) S1x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v26) S256x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v28) S2000x256.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S100000x256 : Shape := ⟨2, ![100000, 256]⟩
abbrev S2x300000 : Shape := ⟨2, ![2, 300000]⟩
abbrev S300000 : Shape := ⟨1, ![300000]⟩
abbrev S256x256 : Shape := ⟨2, ![256, 256]⟩
abbrev S256 : Shape := ⟨1, ![256]⟩
abbrev S1x300000 : Shape := ⟨2, ![1, 300000]⟩
abbrev S_ : Shape := ⟨0, ![]⟩
abbrev S300000x1 : Shape := ⟨2, ![300000, 1]⟩
abbrev S300000x256 : Shape := ⟨2, ![300000, 256]⟩
abbrev S100000 : Shape := ⟨1, ![100000]⟩
abbrev S100000x1 : Shape := ⟨2, ![100000, 1]⟩
abbrev S1x256 : Shape := ⟨2, ![1, 256]⟩

abbrev nBuf : Space → Nat
  | .hbm => 47
  | .vmem => 0
  | .smem => 0
  | _ => 0

abbrev bufTy : (tb : Table) → Fin (tcTables nBuf tb) → BufTy
  | .hbm, ⟨0, _⟩ => ⟨S100000x256, .f32⟩
  | .hbm, ⟨1, _⟩ => ⟨S2x300000, .i32⟩
  | .hbm, ⟨2, _⟩ => ⟨S300000, .f32⟩
  | .hbm, ⟨3, _⟩ => ⟨S256x256, .f32⟩
  | .hbm, ⟨4, _⟩ => ⟨S256, .f32⟩
  | .hbm, ⟨5, _⟩ => ⟨S256x256, .f32⟩
  | .hbm, ⟨6, _⟩ => ⟨S1x300000, .i32⟩
  | .hbm, ⟨7, _⟩ => ⟨S300000, .i32⟩
  | .hbm, ⟨8, _⟩ => ⟨S1x300000, .i32⟩
  | .hbm, ⟨9, _⟩ => ⟨S300000, .i32⟩
  | .hbm, ⟨10, _⟩ => ⟨S_, .i32⟩
  | .hbm, ⟨11, _⟩ => ⟨S300000, .i32⟩
  | .hbm, ⟨12, _⟩ => ⟨S300000, .i1⟩
  | .hbm, ⟨13, _⟩ => ⟨S_, .i32⟩
  | .hbm, ⟨14, _⟩ => ⟨S300000, .i32⟩
  | .hbm, ⟨15, _⟩ => ⟨S300000, .i32⟩
  | .hbm, ⟨16, _⟩ => ⟨S300000, .i32⟩
  | .hbm, ⟨17, _⟩ => ⟨S300000x1, .i32⟩
  | .hbm, ⟨18, _⟩ => ⟨S300000x256, .f32⟩
  | .hbm, ⟨19, _⟩ => ⟨S_, .f32⟩
  | .hbm, ⟨20, _⟩ => ⟨S100000x256, .f32⟩
  | .hbm, ⟨21, _⟩ => ⟨S300000x1, .i32⟩
  | .hbm, ⟨22, _⟩ => ⟨S100000x256, .f32⟩
  | .hbm, ⟨23, _⟩ => ⟨S_, .f32⟩
  | .hbm, ⟨24, _⟩ => ⟨S300000, .f32⟩
  | .hbm, ⟨25, _⟩ => ⟨S_, .f32⟩
  | .hbm, ⟨26, _⟩ => ⟨S100000, .f32⟩
  | .hbm, ⟨27, _⟩ => ⟨S300000x1, .i32⟩
  | .hbm, ⟨28, _⟩ => ⟨S100000, .f32⟩
  | .hbm, ⟨29, _⟩ => ⟨S_, .f32⟩
  | .hbm, ⟨30, _⟩ => ⟨S100000, .f32⟩
  | .hbm, ⟨31, _⟩ => ⟨S100000, .f32⟩
  | .hbm, ⟨32, _⟩ => ⟨S100000x1, .f32⟩
  | .hbm, ⟨33, _⟩ => ⟨S100000x256, .f32⟩
  | .hbm, ⟨34, _⟩ => ⟨S100000x256, .f32⟩
  | .hbm, ⟨35, _⟩ => ⟨S256x256, .f32⟩
  | .hbm, ⟨36, _⟩ => ⟨S100000x256, .f32⟩
  | .hbm, ⟨37, _⟩ => ⟨S1x256, .f32⟩
  | .hbm, ⟨38, _⟩ => ⟨S100000x256, .f32⟩
  | .hbm, ⟨39, _⟩ => ⟨S100000x256, .f32⟩
  | .hbm, ⟨40, _⟩ => ⟨S256x256, .f32⟩
  | .hbm, ⟨41, _⟩ => ⟨S100000x256, .f32⟩
  | .hbm, ⟨42, _⟩ => ⟨S100000x256, .f32⟩
  | .hbm, ⟨43, _⟩ => ⟨S_, .f32⟩
  | .hbm, ⟨44, _⟩ => ⟨S100000x256, .f32⟩
  | .hbm, ⟨45, _⟩ => ⟨S100000x256, .f32⟩
  | .hbm, ⟨46, _⟩ => ⟨S100000x256, .f32⟩
  | _, _ => ⟨S100000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_c : Ref sig .tc := ⟨.hbm, 10, rfl⟩
abbrev main_v4 : Ref sig .tc := ⟨.hbm, 11, rfl⟩
abbrev main_v5 : Ref sig .tc := ⟨.hbm, 12, rfl⟩
abbrev main_c_0 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_1 : Ref sig .tc := ⟨.hbm, 23, rfl⟩
abbrev main_v14 : Ref sig .tc := ⟨.hbm, 24, rfl⟩
abbrev main_cst_2 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_3 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_call0_cst : Ref sig .tc := ⟨.hbm, 43, rfl⟩
abbrev main_call0_v0 : Ref sig .tc := ⟨.hbm, 44, rfl⟩
abbrev main_v31 : Ref sig .tc := ⟨.hbm, 45, rfl⟩
abbrev main_v32 : Ref sig .tc := ⟨.hbm, 46, rfl⟩

abbrev nD : Nat := 1
abbrev τ : Topo := Topo.v7x

variable {F : FTy → Type} [FloatOps F]

class Facts₀ : Prop where
  slices_S2x300000_S1x300000_0_0 : S2x300000.Slices ![0, 0] S1x300000
  shapeCasts_S1x300000_S300000 : S1x300000.ShapeCasts S300000
  slices_S2x300000_S1x300000_1_0 : S2x300000.Slices ![1, 0] S1x300000
  bcast_S_S300000 : S_.BroadcastsInDim S300000 (![] : Fin 0 → Fin S300000.rank)
  bcast_S300000_S300000x1_0 : S300000.BroadcastsInDim S300000x1 (![0] : Fin 1 → Fin S300000x1.rank)
  bcast_S_S100000x256 : S_.BroadcastsInDim S100000x256 (![] : Fin 0 → Fin S100000x256.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x256_0_1 : S100000x1.BroadcastsInDim S100000x256 (![0, 1] : Fin 2 → Fin S100000x256.rank)
  transposes_S256x256_S256x256_1_0 : S256x256.Transposes [1, 0] S256x256
  bcast_S256_S1x256_1 : S256.BroadcastsInDim S1x256 (![1] : Fin 1 → Fin S1x256.rank)
  bcast_S1x256_S100000x256_0_1 : S1x256.BroadcastsInDim S100000x256 (![0, 1] : Fin 2 → Fin S100000x256.rank)
  gather_S100000x256_S300000x1_S300000x256_1_0_n_n_0_1_1256_wf : GatherDims.WF S100000x256 S300000x1 S300000x256 [1] [0] [] [0] [] 1 ![1, 256]
  scatter_S100000x256_S300000x1_S300000x256_1_0_0_1_wf : ScatterDims.WF S100000x256 S300000x1 S300000x256 [1] [0] [0] 1
  scatter_S100000_S300000x1_S300000_n_0_0_1_wf : ScatterDims.WF S100000 S300000x1 S300000 [] [0] [0] 1
  dot_S100000x256_S256x256_S100000x256_1_0_0_1_n_n_wf : DotDims.WF S100000x256 S256x256 S100000x256 [1] [0] [0] [1] [] []

variable [Facts₀]

def gather_S100000x256_S300000x1_S300000x256_1_0_n_n_0_1_1256 : GatherDims S100000x256 S300000x1 S300000x256 where
  offsetDims := [1]
  collapsedSliceDims := [0]
  operandBatchingDims := []
  startIndicesBatchingDims := []
  startIndexMap := [0]
  indexVectorDim := 1
  sliceSizes := ![1, 256]
  wf := gather_S100000x256_S300000x1_S300000x256_1_0_n_n_0_1_1256_wf
def scatter_S100000x256_S300000x1_S300000x256_1_0_0_1 : ScatterDims S100000x256 S300000x1 S300000x256 where
  updateWindowDims := [1]
  insertedWindowDims := [0]
  scatterDimsToOperandDims := [0]
  indexVectorDim := 1
  wf := scatter_S100000x256_S300000x1_S300000x256_1_0_0_1_wf
def scatter_S100000_S300000x1_S300000_n_0_0_1 : ScatterDims S100000 S300000x1 S300000 where
  updateWindowDims := []
  insertedWindowDims := [0]
  scatterDimsToOperandDims := [0]
  indexVectorDim := 1
  wf := scatter_S100000_S300000x1_S300000_n_0_0_1_wf
def dot_S100000x256_S256x256_S100000x256_1_0_0_1_n_n : DotDims S100000x256 S256x256 S100000x256 where
  lhsContracting := [1]
  rhsContracting := [0]
  lhsNonContracting := [0]
  rhsNonContracting := [1]
  lhsBatch := []
  rhsBatch := []
  wf := dot_S100000x256_S256x256_S100000x256_1_0_0_1_n_n_wf

class Facts : Prop extends Facts₀ where

variable [Facts]
-- ==== Proof.LibDenseRow.lean ====
/-
  A DENSE LAYER READ ROW BY ROW, at the ideal values.

  A dense layer sends a row `x` of `K` numbers to the row `j ↦ (∑ k, x k · w k j) + b j` of `N` numbers: each output row
  depends on the same row of the input and on nothing else of it.  Two spellings of it occur in printed programs and both
  are read here at an index `(p, c)` given by its coordinates:
  • on the vector unit, a matrix product into a zero accumulator plus a bias vector `[N]` cast to `[1, N]` and
    broadcast over the rows (`klayer_apply`);
  • on the host, a `dot_general` contracting the operand's columns with the weight's rows plus the bias broadcast
    first to `[1, N]` and then over the rows (`hlayer_apply`).
  Both take the facts about the contraction's dimension numbers as hypotheses (one contracted axis of extent `K`; the
  operand indices at output index `(p, c)` and contraction index `k` are `(p, k)` and `(k, c)`), which a program's
  record gives by evaluation.  Also: two arrays joined along the columns read at `(p, k)` (`concat_cols_apply`), the
  rows side by side (`cat`).  No algebra of the extended reals is used: no sum is regrouped.
-/
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.DenseRow

open Idealize.ShloMosaic Idealize.ShloMosaic.ValueIdx

/-! ## Rows -/

/-- Two rows side by side: the first `A` entries are `x`'s, the next `B` are `y`'s. -/
def cat {A B C : ℕ} (hC : C = A + B) (x : Fin A → EReal) (y : Fin B → EReal) (k : Fin C) : EReal :=
  if h : k.val < A then x ⟨k.val, h⟩ else y ⟨k.val - A, by have := k.isLt; omega⟩

/-- A dense layer on one row: `j ↦ (∑ k, x k · w k j) + b j`. -/
def layer {K N : ℕ} (x : Fin K → EReal) (w : Fin K → Fin N → EReal) (b : Fin N → EReal) (j : Fin N) : EReal :=
  (∑ k : Fin K, x k * w k j) + b j

/-- The activation on one row: the larger of each entry and the level `z` (zero, for a rectifier). -/
def act {N : ℕ} (z : EReal) (x : Fin N → EReal) (j : Fin N) : EReal := max (x j) z

/-! ## Two arrays joined along the columns -/

/-- `[R, A]` and `[R, B]` joined along axis 1, read at `(p, k)`: row `p` of the first beside row `p` of the second. -/
theorem concat_cols_apply {R A B C : ℕ} (hC : C = A + B)
    (x₁ : (⟨2, ![R, A]⟩ : Shape).Idx → EReal) (x₂ : (⟨2, ![R, B]⟩ : Shape).Idx → EReal)
    (h : Shape.Concatenates [(⟨2, ![R, A]⟩ : Shape), ⟨2, ![R, B]⟩] ⟨2, ![R, C]⟩ (1 : Fin 2)) (p : Fin R) (k : Fin C) :
    concatenate ⟨2, ![R, C]⟩ (1 : Fin 2) [⟨⟨2, ![R, A]⟩, x₁⟩, ⟨⟨2, ![R, B]⟩, x₂⟩] h (ix2 p k)
      = cat hC (fun a => x₁ (ix2 p a)) (fun b => x₂ (ix2 p b)) k := by
  unfold cat
  by_cases hk : k.val < A
  · rw [dif_pos hk]
    refine concatenate_pair_apply_left (1 : Fin 2) x₁ x₂ h (ix2 p k) rfl (ix2 p ⟨k.val, hk⟩) fun b => ?_
    match b with
    | ⟨0, _⟩ => rfl
    | ⟨1, _⟩ => rfl
  · rw [dif_neg hk]
    have hkC := k.isLt
    refine concatenate_pair_apply_right (1 : Fin 2) x₁ x₂ h (ix2 p k) rfl rfl (ix2 p ⟨k.val - A, by omega⟩) (fun b hb => ?_) ?_
    · match b with
      | ⟨0, _⟩ => rfl
      | ⟨1, _⟩ => exact absurd rfl hb
    · show (k.val - A) + A = k.val
      omega

/-! ## The contraction as a sum over the contracted extent -/

/-- The sum over a one-axis contraction index, re-indexed by that axis's coordinate. -/
theorem contr_sum {R K N : ℕ} {φ₁ φ₂ : FTy} (d : DotDims ⟨2, ![R, K]⟩ ⟨2, ![K, N]⟩ ⟨2, ![R, N]⟩)
    (hr : d.contr.rank = 1) (hs : d.contr.size ⟨0, by omega⟩ = K)
    (hl : ∀ (p : Fin R) (c : Fin N) (k : Fin K), d.lhsIdx (ix2 p c) ((contrEquiv1 d K hr hs).symm k) = ix2 p k)
    (hrr : ∀ (p : Fin R) (c : Fin N) (k : Fin K), d.rhsIdx (ix2 p c) ((contrEquiv1 d K hr hs).symm k) = ix2 k c)
    (l : FVec Ideal ⟨2, ![R, K]⟩ φ₁) (r : FVec Ideal ⟨2, ![K, N]⟩ φ₂) (p : Fin R) (c : Fin N) :
    (∑ q : d.contr.Idx, l (d.lhsIdx (ix2 p c) q) * r (d.rhsIdx (ix2 p c) q)) = ∑ k : Fin K, l (ix2 p k) * r (ix2 k c) := by
  rw [← Equiv.sum_comp (contrEquiv1 d K hr hs).symm]
  exact Finset.sum_congr rfl fun k _ => by rw [hl p c k, hrr p c k]

/-! ## The layer on the vector unit -/

/-- A matrix product into the zero accumulator plus the bias `[N]` cast to `[1, N]` and broadcast over the rows, read
    at `(p, c)`: the dense layer of row `p`. -/
theorem klayer_apply {R K N : ℕ} {φ₁ φ₂ : FTy} (d : DotDims ⟨2, ![R, K]⟩ ⟨2, ![K, N]⟩ ⟨2, ![R, N]⟩)
    (hr : d.contr.rank = 1) (hs : d.contr.size ⟨0, by omega⟩ = K)
    (hl : ∀ (p : Fin R) (c : Fin N) (k : Fin K), d.lhsIdx (ix2 p c) ((contrEquiv1 d K hr hs).symm k) = ix2 p k)
    (hrr : ∀ (p : Fin R) (c : Fin N) (k : Fin K), d.rhsIdx (ix2 p c) ((contrEquiv1 d K hr hs).symm k) = ix2 k c)
    (prec : Option ContractPrecision) (a : FVec Ideal ⟨2, ![R, K]⟩ φ₁) (w : FVec Ideal ⟨2, ![K, N]⟩ φ₂)
    (hw : (⟨2, ![K, N]⟩ : Shape).ShapeCasts ⟨2, ![K, N]⟩) (b : FVec Ideal ⟨1, ![N]⟩ .f32)
    (hc : (⟨1, ![N]⟩ : Shape).ShapeCasts ⟨2, ![1, N]⟩) (hb : (⟨2, ![1, N]⟩ : Shape).Broadcasts ⟨2, ![R, N]⟩)
    (p : Fin R) (c : Fin N) :
    addf (matmul d prec a (shapeCast ⟨2, ![K, N]⟩ w hw) (constant ⟨2, ![R, N]⟩ .f32 0x00000000#32))
        (broadcastTo ⟨2, ![R, N]⟩ (shapeCast ⟨2, ![1, N]⟩ b hc) hb) (ix2 p c)
      = layer (fun k => a (ix2 p k)) (fun k j => w (ix2 k j)) (fun j => b (ix1 j)) c := by
  show FloatOps.matmul d prec a (shapeCast ⟨2, ![K, N]⟩ w hw) (constant ⟨2, ![R, N]⟩ .f32 0x00000000#32) (ix2 p c)
      + broadcastTo ⟨2, ![R, N]⟩ (shapeCast ⟨2, ![1, N]⟩ b hc) hb (ix2 p c) = _
  rw [Ideal.matmul_constant_zero_apply, contr_sum d hr hs hl hrr, shapeCast_self, broadcastTo_1b_ab_apply,
    shapeCast_a_1a_apply]
  rfl

/-! ## The layer on the host -/

/-- A `dot_general` contracting the operand's columns with the weight's rows plus the bias broadcast to `[1, N]` and then
    over the rows, read at `(p, c)`: the dense layer of row `p`. -/
theorem hlayer_apply {R K N : ℕ} {φ₁ φ₂ : FTy} (d : DotDims ⟨2, ![R, K]⟩ ⟨2, ![K, N]⟩ ⟨2, ![R, N]⟩)
    (hr : d.contr.rank = 1) (hs : d.contr.size ⟨0, by omega⟩ = K)
    (hl : ∀ (p : Fin R) (c : Fin N) (k : Fin K), d.lhsIdx (ix2 p c) ((contrEquiv1 d K hr hs).symm k) = ix2 p k)
    (hrr : ∀ (p : Fin R) (c : Fin N) (k : Fin K), d.rhsIdx (ix2 p c) ((contrEquiv1 d K hr hs).symm k) = ix2 k c)
    (prec : Option ContractPrecision) (a : FVec Ideal ⟨2, ![R, K]⟩ φ₁) (w : FVec Ideal ⟨2, ![K, N]⟩ φ₂)
    (b : FVec Ideal ⟨1, ![N]⟩ .f32)
    (h1 : (⟨1, ![N]⟩ : Shape).BroadcastsInDim ⟨2, ![1, N]⟩ ![1]) (h2 : (⟨2, ![1, N]⟩ : Shape).BroadcastsInDim ⟨2, ![R, N]⟩ ![0, 1])
    (p : Fin R) (c : Fin N) :
    addf (Host.dotGeneral d prec a w)
        (broadcastInDim ⟨2, ![R, N]⟩ ![0, 1] h2 (broadcastInDim ⟨2, ![1, N]⟩ ![1] h1 b)) (ix2 p c)
      = layer (fun k => a (ix2 p k)) (fun k j => w (ix2 k j)) (fun j => b (ix1 j)) c := by
  show Host.dotGeneral d prec a w (ix2 p c)
      + broadcastInDim ⟨2, ![R, N]⟩ ![0, 1] h2 (broadcastInDim ⟨2, ![1, N]⟩ ![1] h1 b) (ix2 p c) = _
  have e2 : broadcastInDim ⟨2, ![R, N]⟩ ![0, 1] h2 (broadcastInDim ⟨2, ![1, N]⟩ ![1] h1 b) (ix2 p c)
      = broadcastInDim ⟨2, ![1, N]⟩ ![1] h1 b (ix2 (0 : Fin 1) c) :=
    broadcastInDim_apply _ h2 _ (ix2 p c) (ix2 (0 : Fin 1) c) fun ax => by
      match ax with
      | ⟨0, _⟩ => show 0 = if (1 : ℕ) = 1 then 0 else p.val; rw [if_pos rfl]
      | ⟨1, _⟩ =>
        show c.val = if N = 1 then 0 else c.val
        split
        · have := c.isLt; omega
        · rfl
  have e1 : broadcastInDim ⟨2, ![1, N]⟩ ![1] h1 b (ix2 (0 : Fin 1) c) = b (ix1 c) :=
    broadcastInDim_apply _ h1 b (ix2 (0 : Fin 1) c) (ix1 c) fun ax => by
      match ax with
      | ⟨0, _⟩ =>
        show c.val = if N = 1 then 0 else c.val
        split
        · have := c.isLt; omega
        · rfl
  rw [e2, e1]
  simp only [Host.dotGeneral]
  rw [Ideal.dotGeneral_apply, contr_sum d hr hs hl hrr]
  rfl

/-! ## Whole arrays, row by row

The same three operations as functions of whole arrays with any number `R` of rows: a kernel's block of rows and a
reference's full array are then the SAME function at two row counts, and because each output row depends only on the same
input row, a block of the result is the function of the blocks (`layerArr_rows`, `actArr_rows`, `catArr_rows`). -/

/-- The dense layer applied to every row of `a`. -/
def layerArr {R K N : ℕ} (a : (⟨2, ![R, K]⟩ : Shape).Idx → EReal) (w : (⟨2, ![K, N]⟩ : Shape).Idx → EReal)
    (b : (⟨1, ![N]⟩ : Shape).Idx → EReal) : (⟨2, ![R, N]⟩ : Shape).Idx → EReal :=
  fun i => layer (fun k => a (ix2 (idxEquiv2 (n0 := R) (n1 := N) i).1 k)) (fun k j => w (ix2 k j)) (fun j => b (ix1 j))
    (idxEquiv2 (n0 := R) (n1 := N) i).2

/-- The activation applied to every entry. -/
def actArr {s : Shape} (z : EReal) (y : s.Idx → EReal) : s.Idx → EReal := fun i => max (y i) z

/-- Two arrays with the same rows, side by side. -/
def catArr {R A B C : ℕ} (hC : C = A + B) (x₁ : (⟨2, ![R, A]⟩ : Shape).Idx → EReal) (x₂ : (⟨2, ![R, B]⟩ : Shape).Idx → EReal) :
    (⟨2, ![R, C]⟩ : Shape).Idx → EReal :=
  fun i => cat hC (fun a => x₁ (ix2 (idxEquiv2 (n0 := R) (n1 := C) i).1 a)) (fun b => x₂ (ix2 (idxEquiv2 (n0 := R) (n1 := C) i).1 b))
    (idxEquiv2 (n0 := R) (n1 := C) i).2

theorem layerArr_apply {R K N : ℕ} (a : (⟨2, ![R, K]⟩ : Shape).Idx → EReal) (w : (⟨2, ![K, N]⟩ : Shape).Idx → EReal)
    (b : (⟨1, ![N]⟩ : Shape).Idx → EReal) (p : Fin R) (c : Fin N) :
    layerArr a w b (ix2 p c) = layer (fun k => a (ix2 p k)) (fun k j => w (ix2 k j)) (fun j => b (ix1 j)) c := rfl

theorem catArr_apply {R A B C : ℕ} (hC : C = A + B) (x₁ : (⟨2, ![R, A]⟩ : Shape).Idx → EReal) (x₂ : (⟨2, ![R, B]⟩ : Shape).Idx → EReal)
    (p : Fin R) (k : Fin C) : catArr hC x₁ x₂ (ix2 p k) = cat hC (fun a => x₁ (ix2 p a)) (fun b => x₂ (ix2 p b)) k := rfl

/-- Row `p` of the layer of `a` is row `σ p` of the layer of `A` when row `p` of `a` is row `σ p` of `A`. -/
theorem layerArr_rows {R R' K N : ℕ} (a : (⟨2, ![R, K]⟩ : Shape).Idx → EReal) (A : (⟨2, ![R', K]⟩ : Shape).Idx → EReal)
    (w : (⟨2, ![K, N]⟩ : Shape).Idx → EReal) (b : (⟨1, ![N]⟩ : Shape).Idx → EReal) (p : Fin R) (p' : Fin R')
    (h : ∀ k : Fin K, a (ix2 p k) = A (ix2 p' k)) (c : Fin N) :
    layerArr a w b (ix2 p c) = layerArr A w b (ix2 p' c) := by
  rw [layerArr_apply, layerArr_apply, show (fun k => a (ix2 p k)) = fun k => A (ix2 p' k) from funext h]

theorem actArr_rows {R R' N : ℕ} (z : EReal) (y : (⟨2, ![R, N]⟩ : Shape).Idx → EReal) (Y : (⟨2, ![R', N]⟩ : Shape).Idx → EReal)
    (p : Fin R) (p' : Fin R') (h : ∀ k : Fin N, y (ix2 p k) = Y (ix2 p' k)) (c : Fin N) :
    actArr z y (ix2 p c) = actArr z Y (ix2 p' c) := by
  show max (y (ix2 p c)) z = max (Y (ix2 p' c)) z
  rw [h c]

theorem catArr_rows {R R' A B C : ℕ} (hC : C = A + B) (x₁ : (⟨2, ![R, A]⟩ : Shape).Idx → EReal) (x₂ : (⟨2, ![R, B]⟩ : Shape).Idx → EReal)
    (X₁ : (⟨2, ![R', A]⟩ : Shape).Idx → EReal) (X₂ : (⟨2, ![R', B]⟩ : Shape).Idx → EReal) (p : Fin R) (p' : Fin R')
    (h₁ : ∀ k : Fin A, x₁ (ix2 p k) = X₁ (ix2 p' k)) (h₂ : ∀ k : Fin B, x₂ (ix2 p k) = X₂ (ix2 p' k)) (c : Fin C) :
    catArr hC x₁ x₂ (ix2 p c) = catArr hC X₁ X₂ (ix2 p' c) := by
  rw [catArr_apply, catArr_apply, show (fun a => x₁ (ix2 p a)) = fun a => X₁ (ix2 p' a) from funext h₁,
    show (fun b => x₂ (ix2 p b)) = fun b => X₂ (ix2 p' b) from funext h₂]

/-- The vector unit's layer, as a whole array. -/
theorem klayerArr {R K N : ℕ} {φ₁ φ₂ : FTy} (d : DotDims ⟨2, ![R, K]⟩ ⟨2, ![K, N]⟩ ⟨2, ![R, N]⟩)
    (hr : d.contr.rank = 1) (hs : d.contr.size ⟨0, by omega⟩ = K)
    (hl : ∀ (p : Fin R) (c : Fin N) (k : Fin K), d.lhsIdx (ix2 p c) ((contrEquiv1 d K hr hs).symm k) = ix2 p k)
    (hrr : ∀ (p : Fin R) (c : Fin N) (k : Fin K), d.rhsIdx (ix2 p c) ((contrEquiv1 d K hr hs).symm k) = ix2 k c)
    (prec : Option ContractPrecision) (a : FVec Ideal ⟨2, ![R, K]⟩ φ₁) (w : FVec Ideal ⟨2, ![K, N]⟩ φ₂)
    (hw : (⟨2, ![K, N]⟩ : Shape).ShapeCasts ⟨2, ![K, N]⟩) (b : FVec Ideal ⟨1, ![N]⟩ .f32)
    (hc : (⟨1, ![N]⟩ : Shape).ShapeCasts ⟨2, ![1, N]⟩) (hb : (⟨2, ![1, N]⟩ : Shape).Broadcasts ⟨2, ![R, N]⟩) :
    addf (matmul d prec a (shapeCast ⟨2, ![K, N]⟩ w hw) (constant ⟨2, ![R, N]⟩ .f32 0x00000000#32))
        (broadcastTo ⟨2, ![R, N]⟩ (shapeCast ⟨2, ![1, N]⟩ b hc) hb)
      = layerArr a w b := by
  funext i
  obtain ⟨p, c, rfl⟩ : ∃ (p : Fin R) (c : Fin N), i = ix2 p c := ⟨i 0, i 1, eq_ix2 i⟩
  exact klayer_apply d hr hs hl hrr prec a w hw b hc hb p c

/-- The host's layer, as a whole array. -/
theorem hlayerArr {R K N : ℕ} {φ₁ φ₂ : FTy} (d : DotDims ⟨2, ![R, K]⟩ ⟨2, ![K, N]⟩ ⟨2, ![R, N]⟩)
    (hr : d.contr.rank = 1) (hs : d.contr.size ⟨0, by omega⟩ = K)
    (hl : ∀ (p : Fin R) (c : Fin N) (k : Fin K), d.lhsIdx (ix2 p c) ((contrEquiv1 d K hr hs).symm k) = ix2 p k)
    (hrr : ∀ (p : Fin R) (c : Fin N) (k : Fin K), d.rhsIdx (ix2 p c) ((contrEquiv1 d K hr hs).symm k) = ix2 k c)
    (prec : Option ContractPrecision) (a : FVec Ideal ⟨2, ![R, K]⟩ φ₁) (w : FVec Ideal ⟨2, ![K, N]⟩ φ₂)
    (b : FVec Ideal ⟨1, ![N]⟩ .f32)
    (h1 : (⟨1, ![N]⟩ : Shape).BroadcastsInDim ⟨2, ![1, N]⟩ ![1]) (h2 : (⟨2, ![1, N]⟩ : Shape).BroadcastsInDim ⟨2, ![R, N]⟩ ![0, 1]) :
    addf (Host.dotGeneral d prec a w)
        (broadcastInDim ⟨2, ![R, N]⟩ ![0, 1] h2 (broadcastInDim ⟨2, ![1, N]⟩ ![1] h1 b))
      = layerArr a w b := by
  funext i
  obtain ⟨p, c, rfl⟩ : ∃ (p : Fin R) (c : Fin N), i = ix2 p c := ⟨i 0, i 1, eq_ix2 i⟩
  exact hlayer_apply d hr hs hl hrr prec a w b h1 h2 p c

/-- Two arrays joined along the columns, as a whole array. -/
theorem concatArr {R A B C : ℕ} (hC : C = A + B)
    (x₁ : (⟨2, ![R, A]⟩ : Shape).Idx → EReal) (x₂ : (⟨2, ![R, B]⟩ : Shape).Idx → EReal)
    (h : Shape.Concatenates [(⟨2, ![R, A]⟩ : Shape), ⟨2, ![R, B]⟩] ⟨2, ![R, C]⟩ (1 : Fin 2)) :
    concatenate ⟨2, ![R, C]⟩ (1 : Fin 2) [⟨⟨2, ![R, A]⟩, x₁⟩, ⟨⟨2, ![R, B]⟩, x₂⟩] h = catArr hC x₁ x₂ := by
  funext i
  obtain ⟨p, c, rfl⟩ : ∃ (p : Fin R) (c : Fin C), i = ix2 p c := ⟨i 0, i 1, eq_ix2 i⟩
  exact concat_cols_apply hC x₁ x₂ h p c

end Cert.DenseRow

end
-- ==== Proof.LibPlainDot.lean ====
/-
  THE PLAIN MATRIX PRODUCT'S DIMENSION RECORD, AND THE DENSE LAYER OVER IT, at the ideal values.

  An `[R, K]` array times a `[K, N]` array contracts the first's columns with the second's rows.  Its dimension record is
  `DotDims.plain R K N`; a printed program's record with the same six lists (contract axis 1 with axis 0, keep axis 0
  and axis 1, no batch axes) is that record by unfolding.  Proved here once for every `R`, `K`, `N`:
  • there is one contracted axis, of extent `K` (`rank_contr`, `size_contr`);
  • at the output index `(p, c)` and contraction position `k` the left operand is read at `(p, k)` and the right operand
    at `(k, c)` (`lhs_at`, `rhs_at`).
  These are the four facts LibDenseRow's dense layer asks of a record, so its two spellings are restated for the plain
  record with nothing left to supply (`klayer`: matrix product into a zero accumulator plus a bias vector cast to one row
  and broadcast; `hlayer`: `dot_general` plus the bias broadcast to one row and then over the rows).  Both are
  `j ↦ (∑ k, x k · w k j) + b j` on every row.  No algebra of the extended reals is used.
-/
import proofs.«125013_j57921928954039_2_alg».proof.Proof.LibDenseRow

noncomputable section

open scoped BigOperators

namespace Cert.PlainDot

open Idealize.ShloMosaic Idealize.ShloMosaic.ValueIdx Cert.DenseRow

variable (R K N : ℕ)

/-- One axis is contracted. -/
theorem rank_contr : (DotDims.plain R K N).contr.rank = 1 := rfl

/-- Its extent is the shared extent `K`. -/
theorem size_contr : (DotDims.plain R K N).contr.size ⟨0, Nat.one_pos⟩ = K := rfl

/-- The left operand's index at output `(p, c)`, contraction position `k`: row `p`, column `k`. -/
theorem lhs_at (p : Fin R) (c : Fin N) (k : Fin K) :
    (DotDims.plain R K N).lhsIdx (ix2 p c) ((contrEquiv1 (DotDims.plain R K N) K rfl rfl).symm k) = ix2 p k := by
  have hk := contrEquiv1_symm_val (DotDims.plain R K N) K rfl rfl k
  funext a
  apply Fin.ext
  match a with
  | ⟨0, _⟩ =>
    show ((DotDims.plain R K N).lhsIdx (ix2 p c) ((contrEquiv1 (DotDims.plain R K N) K rfl rfl).symm k) 0).val = p.val
    unfold DotDims.lhsIdx
    rw [dif_neg (show ¬ (0 : Fin 2) ∈ (DotDims.plain R K N).lhsBatch from List.not_mem_nil),
      dif_pos (show (0 : Fin 2) ∈ (DotDims.plain R K N).lhsNonContracting from List.mem_singleton.mpr rfl)]
    rfl
  | ⟨1, _⟩ => exact ((DotDims.plain R K N).lhsIdx_val_of_single rfl (ix2 p c) _).trans hk

/-- The right operand's index at output `(p, c)`, contraction position `k`: row `k`, column `c`. -/
theorem rhs_at (p : Fin R) (c : Fin N) (k : Fin K) :
    (DotDims.plain R K N).rhsIdx (ix2 p c) ((contrEquiv1 (DotDims.plain R K N) K rfl rfl).symm k) = ix2 k c := by
  have hk := contrEquiv1_symm_val (DotDims.plain R K N) K rfl rfl k
  funext a
  apply Fin.ext
  match a with
  | ⟨0, _⟩ => exact ((DotDims.plain R K N).rhsIdx_val_of_single rfl (ix2 p c) _).trans hk
  | ⟨1, _⟩ =>
    show ((DotDims.plain R K N).rhsIdx (ix2 p c) ((contrEquiv1 (DotDims.plain R K N) K rfl rfl).symm k) 1).val = c.val
    unfold DotDims.rhsIdx
    rw [dif_neg (show ¬ (1 : Fin 2) ∈ (DotDims.plain R K N).rhsBatch from List.not_mem_nil),
      dif_pos (show (1 : Fin 2) ∈ (DotDims.plain R K N).rhsNonContracting from List.mem_singleton.mpr rfl)]
    rfl

/-- The vector unit's dense layer over the plain record, as a whole array. -/
theorem klayer {φ₁ φ₂ : FTy} (prec : Option ContractPrecision) (a : FVec Ideal ⟨2, ![R, K]⟩ φ₁) (w : FVec Ideal ⟨2, ![K, N]⟩ φ₂)
    (hw : (⟨2, ![K, N]⟩ : Shape).ShapeCasts ⟨2, ![K, N]⟩) (b : FVec Ideal ⟨1, ![N]⟩ .f32)
    (hc : (⟨1, ![N]⟩ : Shape).ShapeCasts ⟨2, ![1, N]⟩) (hb : (⟨2, ![1, N]⟩ : Shape).Broadcasts ⟨2, ![R, N]⟩) :
    addf (matmul (DotDims.plain R K N) prec a (shapeCast ⟨2, ![K, N]⟩ w hw) (constant ⟨2, ![R, N]⟩ .f32 0x00000000#32))
        (broadcastTo ⟨2, ![R, N]⟩ (shapeCast ⟨2, ![1, N]⟩ b hc) hb)
      = layerArr a w b :=
  klayerArr (DotDims.plain R K N) rfl rfl (lhs_at R K N) (rhs_at R K N) prec a w hw b hc hb

/-- The host's dense layer over the plain record, as a whole array. -/
theorem hlayer {φ₁ φ₂ : FTy} (prec : Option ContractPrecision) (a : FVec Ideal ⟨2, ![R, K]⟩ φ₁) (w : FVec Ideal ⟨2, ![K, N]⟩ φ₂)
    (b : FVec Ideal ⟨1, ![N]⟩ .f32)
    (h1 : (⟨1, ![N]⟩ : Shape).BroadcastsInDim ⟨2, ![1, N]⟩ ![1]) (h2 : (⟨2, ![1, N]⟩ : Shape).BroadcastsInDim ⟨2, ![R, N]⟩ ![0, 1]) :
    addf (Host.dotGeneral (DotDims.plain R K N) prec a w)
        (broadcastInDim ⟨2, ![R, N]⟩ ![0, 1] h2 (broadcastInDim ⟨2, ![1, N]⟩ ![1] h1 b))
      = layerArr a w b :=
  hlayerArr (DotDims.plain R K N) rfl rfl (lhs_at R K N) (rhs_at R K N) prec a w b h1 h2

end Cert.PlainDot

end
-- ==== Proof.LibBlockDot.lean ====
/-
  A BLOCK OF ROWS OF A MATRIX PRODUCT, at the ideal values.

  The product of an `[R, K]` array `a` and a `[K, N]` array `w` has at `(p, c)` the entry `∑ k, a (p, k) · w (k, c)`:
  row `p` of the result depends on row `p` of `a` and on nothing else of it.  So when `a` is a block of rows of a taller
  array `A` (row `p` of `a` is row `off + p` of `A`), the product of the block is the same block of rows of the product of
  `A`: a product computed block of rows by block of rows is the product of the whole.  Two spellings of the product are
  read here over the plain dimension record `DotDims.plain` (contract the left operand's columns with the right
  operand's rows, no batch axes):
  • on the vector unit, the matrix product into a zero accumulator (`kdot_apply`);
  • on the host, `dot_general` (`hdot_apply`);
  both are the sum above, so a row of the first over a block is the row of the second over the whole array
  (`kdot_rows` by coordinates, `kdot_block` at indices given by their coordinates' values).  The sums are compared term
  by term in the same order: no algebra of the extended reals is used, and nothing needs to be finite.
-/
import proofs.«125013_j57921928954039_2_alg».proof.Proof.LibPlainDot

noncomputable section

open scoped BigOperators

namespace Cert.BlockDot

open Idealize.ShloMosaic Idealize.ShloMosaic.ValueIdx Cert.DenseRow Cert.PlainDot

/-- The vector unit's product into the zero accumulator, read at `(p, c)`. -/
theorem kdot_apply {R K N : ℕ} {φ₁ φ₂ : FTy} (prec : Option ContractPrecision)
    (a : FVec Ideal ⟨2, ![R, K]⟩ φ₁) (w : FVec Ideal ⟨2, ![K, N]⟩ φ₂) (p : Fin R) (c : Fin N) :
    matmul (DotDims.plain R K N) prec a w (constant ⟨2, ![R, N]⟩ .f32 0x00000000#32) (ix2 p c)
      = ∑ k : Fin K, a (ix2 p k) * w (ix2 k c) := by
  show FloatOps.matmul (DotDims.plain R K N) prec a w (constant ⟨2, ![R, N]⟩ .f32 0x00000000#32) (ix2 p c) = _
  rw [Ideal.matmul_constant_zero_apply]
  exact contr_sum (DotDims.plain R K N) rfl rfl (lhs_at R K N) (rhs_at R K N) a w p c

/-- The host's `dot_general`, read at `(p, c)`: the same sum. -/
theorem hdot_apply {R K N : ℕ} {φ₁ φ₂ : FTy} (prec : Option ContractPrecision)
    (a : FVec Ideal ⟨2, ![R, K]⟩ φ₁) (w : FVec Ideal ⟨2, ![K, N]⟩ φ₂) (p : Fin R) (c : Fin N) :
    Host.dotGeneral (DotDims.plain R K N) prec a w (ix2 p c) = ∑ k : Fin K, a (ix2 p k) * w (ix2 k c) := by
  simp only [Host.dotGeneral]
  rw [Ideal.dotGeneral_apply]
  exact contr_sum (DotDims.plain R K N) rfl rfl (lhs_at R K N) (rhs_at R K N) a w p c

/-- Row `p` of the vector unit's product of `a` is row `p'` of the host's product of `A` when row `p` of `a` is row `p'`
    of `A` and the right operands agree on column `c`. -/
theorem kdot_rows {R R' K N : ℕ} {φ₁ φ₁' φ₂ φ₂' : FTy} (prec prec' : Option ContractPrecision)
    (a : FVec Ideal ⟨2, ![R, K]⟩ φ₁) (A : FVec Ideal ⟨2, ![R', K]⟩ φ₁')
    (w : FVec Ideal ⟨2, ![K, N]⟩ φ₂) (W : FVec Ideal ⟨2, ![K, N]⟩ φ₂') (p : Fin R) (p' : Fin R') (c : Fin N)
    (ha : ∀ k : Fin K, (a (ix2 p k) : EReal) = A (ix2 p' k)) (hw : ∀ k : Fin K, (w (ix2 k c) : EReal) = W (ix2 k c)) :
    (matmul (DotDims.plain R K N) prec a w (constant ⟨2, ![R, N]⟩ .f32 0x00000000#32) (ix2 p c) : EReal)
      = Host.dotGeneral (DotDims.plain R' K N) prec' A W (ix2 p' c) := by
  rw [kdot_apply, hdot_apply]
  exact Finset.sum_congr rfl fun k _ => by rw [ha k, hw k]

/-- The same at indices given by the values of their coordinates: the output index `j` of the block and the output index
    `i` of the whole array name the same column, and `i`'s row is `j`'s row moved down by `off`; the block `a` is `A` read
    `off` rows down; the right operands are one array. -/
theorem kdot_block {R R' K N : ℕ} {φ₁ φ₁' φ₂ φ₂' : FTy} (prec prec' : Option ContractPrecision)
    (a : FVec Ideal ⟨2, ![R, K]⟩ φ₁) (A : FVec Ideal ⟨2, ![R', K]⟩ φ₁')
    (w : FVec Ideal ⟨2, ![K, N]⟩ φ₂) (W : FVec Ideal ⟨2, ![K, N]⟩ φ₂') (off : ℕ)
    (j : (⟨2, ![R, N]⟩ : Shape).Idx) (i : (⟨2, ![R', N]⟩ : Shape).Idx)
    (hi0 : (i 0).val = off + (j 0).val) (hi1 : (i 1).val = (j 1).val)
    (ha : ∀ (y : (⟨2, ![R, K]⟩ : Shape).Idx) (z : (⟨2, ![R', K]⟩ : Shape).Idx),
      (z 0).val = off + (y 0).val → (z 1).val = (y 1).val → (a y : EReal) = A z)
    (hw : ∀ y : (⟨2, ![K, N]⟩ : Shape).Idx, (w y : EReal) = W y) :
    (matmul (DotDims.plain R K N) prec a w (constant ⟨2, ![R, N]⟩ .f32 0x00000000#32) j : EReal)
      = Host.dotGeneral (DotDims.plain R' K N) prec' A W i := by
  obtain ⟨p, c, rfl⟩ : ∃ (p : Fin R) (c : Fin N), j = ix2 p c := ⟨j 0, j 1, eq_ix2 j⟩
  obtain ⟨p', c', rfl⟩ : ∃ (p' : Fin R') (c' : Fin N), i = ix2 p' c' := ⟨i 0, i 1, eq_ix2 i⟩
  obtain rfl : c' = c := Fin.ext hi1
  exact kdot_rows prec prec' a A w W p p' c' (fun k => ha (ix2 p k) (ix2 p' k) hi0 rfl) (fun k => hw (ix2 k c'))

end Cert.BlockDot

end
-- ==== Proof.LibRegionRows.lean ====
/-
  ROWS OF A MATRIX PRODUCT, read off a block of rows, at the ideal values.

  A grid of blocks of rows computes a matrix product block by block: the block at offset `off` holds rows
  `off, off + 1, …` of the tall left operand, the right operand is whole at every block.  Entry `(p, c)` of the block's
  product is then entry `(off + p, c)` of the product of the whole arrays, `∑ k, A (off + p, k) · W (k, c)`.  Stated
  here once for every extent, over the plain dimension record, with the block and the arrays as variables and the
  relation between them as hypotheses on coordinates; the whole-array product is the function `prodArr A W`.  The sums are
  compared term by term: no algebra of the extended reals is used.
-/
import proofs.«125013_j57921928954039_2_alg».proof.Proof.LibBlockDot

noncomputable section

open scoped BigOperators

namespace Cert.KernelIdeal.RegionValue

open Idealize.ShloMosaic Idealize.ShloMosaic.ValueIdx

/-- The offsets `(0, 0)` of a whole-buffer access are the zero function. -/
theorem off2_zero : (![0, 0] : Fin 2 → Nat) = fun _ => 0 := funext fun a => by fin_cases a <;> rfl

/-- The contents of an array of reals, as a function from its indices to the extended reals.  The identity: it only names
    the type, for a buffer whose element type is known by unfolding only. -/
abbrev realArr (s : Shape) (f : s.Idx → EReal) : s.Idx → EReal := f

/-- The product of an `[R, K]` array and a `[K, N]` array, index by index. -/
def prodArr {R K N : ℕ} (A : (⟨2, ![R, K]⟩ : Shape).Idx → EReal) (W : (⟨2, ![K, N]⟩ : Shape).Idx → EReal) :
    (⟨2, ![R, N]⟩ : Shape).Idx → EReal :=
  fun i => ∑ k : Fin K, A (ix2 (i 0) k) * W (ix2 k (i 1))

theorem prodArr_apply {R K N : ℕ} (A : (⟨2, ![R, K]⟩ : Shape).Idx → EReal) (W : (⟨2, ![K, N]⟩ : Shape).Idx → EReal)
    (p : Fin R) (c : Fin N) : prodArr A W (ix2 p c) = ∑ k : Fin K, A (ix2 p k) * W (ix2 k c) := rfl

/-- The vector unit's product of a block `a` of rows and `w`, at the block's index `y`, is the whole product at the
    array's index `i`, when `i` is `y` moved down by `off` rows, `a` is `A` read `off` rows down, and `w` is `W`. -/
theorem block_prod {R R' K N : ℕ} {φ₁ φ₂ : FTy} (prec : Option ContractPrecision)
    (a : FVec Ideal ⟨2, ![R, K]⟩ φ₁) (w : FVec Ideal ⟨2, ![K, N]⟩ φ₂)
    (A : (⟨2, ![R', K]⟩ : Shape).Idx → EReal) (W : (⟨2, ![K, N]⟩ : Shape).Idx → EReal) (off : ℕ)
    (y : (⟨2, ![R, N]⟩ : Shape).Idx) (i : (⟨2, ![R', N]⟩ : Shape).Idx)
    (hi0 : (i 0).val = off + (y 0).val) (hi1 : (i 1).val = (y 1).val)
    (ha : ∀ (u : (⟨2, ![R, K]⟩ : Shape).Idx) (z : (⟨2, ![R', K]⟩ : Shape).Idx),
      (z 0).val = off + (u 0).val → (z 1).val = (u 1).val → (a u : EReal) = A z)
    (hw : ∀ u : (⟨2, ![K, N]⟩ : Shape).Idx, (w u : EReal) = W u) :
    (matmul (DotDims.plain R K N) prec a w (constant ⟨2, ![R, N]⟩ .f32 0x00000000#32) y : EReal) = prodArr A W i := by
  obtain ⟨p, c, rfl⟩ : ∃ (p : Fin R) (c : Fin N), y = ix2 p c := ⟨y 0, y 1, eq_ix2 y⟩
  obtain ⟨p', c', rfl⟩ : ∃ (p' : Fin R') (c' : Fin N), i = ix2 p' c' := ⟨i 0, i 1, eq_ix2 i⟩
  obtain rfl : c' = c := Fin.ext hi1
  rw [Cert.BlockDot.kdot_apply, prodArr_apply]
  exact Finset.sum_congr rfl fun k _ => by rw [ha (ix2 p k) (ix2 p' k) hi0 rfl, hw (ix2 k c')]

end Cert.KernelIdeal.RegionValue

end
-- ==== Proof.SageSpec.lean ====
/-
  THE MEAN-NEIGHBOUR LAYER ON WHOLE ARRAYS, at the ideal values.

  Given an aggregate `A` and the node features `X`, both with `R` rows of `D` numbers, two `[D, D]` weight arrays
  `Wl`, `Wr` and a bias row `b`, the layer's output at `(p, c)` is

      max ((∑ k, A (p, k) · Wl (k, c)) + (∑ k, X (p, k) · Wr (k, c)) + b c) z + X (p, c)

  with `z` the rectifier's level (zero).  Row `p` of the output depends on row `p` of `A` and of `X` only, so a
  block of rows of the output is the layer of the same block of rows of `A` and `X`.  A second spelling adds the bias
  before the second product, `((∑ A·Wl) + b) + (∑ X·Wr)`; the two agree because addition of extended reals is
  commutative and associative (`add_right_comm`): no sum is distributed and nothing needs to be finite.
-/
import proofs.«125013_j57921928954039_2_alg».proof.Proof.LibRegionRows

noncomputable section

open scoped BigOperators

namespace Cert.Sage

open Idealize.ShloMosaic Idealize.ShloMosaic.ValueIdx Cert.KernelIdeal.RegionValue

/-- The rectifier's level: the float word of zero, read at the ideal values. -/
abbrev zlev : EReal := FloatOps.ofBits (F := Ideal) .f32 0x00000000#32

/-- The layer: both products first, then the bias, the rectifier at level `z`, and the residual. -/
def sage {R D : ℕ} (z : EReal) (A X : (⟨2, ![R, D]⟩ : Shape).Idx → EReal) (Wl Wr : (⟨2, ![D, D]⟩ : Shape).Idx → EReal)
    (b : (⟨1, ![D]⟩ : Shape).Idx → EReal) : (⟨2, ![R, D]⟩ : Shape).Idx → EReal :=
  fun i => max ((prodArr A Wl i + prodArr X Wr i) + b (ix1 (i 1))) z + X i

theorem sage_apply {R D : ℕ} (z : EReal) (A X : (⟨2, ![R, D]⟩ : Shape).Idx → EReal) (Wl Wr : (⟨2, ![D, D]⟩ : Shape).Idx → EReal)
    (b : (⟨1, ![D]⟩ : Shape).Idx → EReal) (p : Fin R) (c : Fin D) :
    sage z A X Wl Wr b (ix2 p c)
      = max (((∑ k : Fin D, A (ix2 p k) * Wl (ix2 k c)) + (∑ k : Fin D, X (ix2 p k) * Wr (ix2 k c))) + b (ix1 c)) z + X (ix2 p c) := rfl

/-- Five equal ingredients give equal outputs (the layer's shape, with nothing opened). -/
theorem sage_congr {m₁ m₂ β ζ ξ p₁ p₂ β' ζ' ξ' : EReal} (h₁ : m₁ = p₁) (h₂ : m₂ = p₂) (hβ : β = β') (hζ : ζ = ζ') (hξ : ξ = ξ') :
    max ((m₁ + m₂) + β) ζ + ξ = max ((p₁ + p₂) + β') ζ' + ξ' := by
  rw [h₁, h₂, hβ, hζ, hξ]

/-- The other spelling: the bias joins the first product before the second is added. -/
theorem sage_congr' {m₁ m₂ β ζ ξ p₁ p₂ β' ζ' ξ' : EReal} (h₁ : m₁ = p₁) (h₂ : m₂ = p₂) (hβ : β = β') (hζ : ζ = ζ') (hξ : ξ = ξ') :
    max ((m₁ + β) + m₂) ζ + ξ = max ((p₁ + p₂) + β') ζ' + ξ' := by
  rw [h₁, h₂, hβ, hζ, hξ, add_right_comm]

end Cert.Sage

end
-- ==== Proof.KernelPayload.lean ====
/-
  THE KERNEL BODY'S RESULT AT AN INDEX, at the ideal values.

  At a grid point the body holds a block of 2000 rows of the aggregate (`v0`) and of the features (`v3`), the two
  `[256, 256]` weight arrays (`v5`, `v7`) and the bias row (`v12`), and stores
  `max ((v0 · v5 + v3 · v7) + bias) 0 + v3`.  A change of float format is the identity at the ideal values and a product
  into a zero accumulator is the plain sum over the contracted axis, so at `(p, c)` of the block this is the layer read at
  `(off + p, c)` of whole arrays `A`, `X` whose rows `off, off + 1, …` the two blocks hold.
-/
import proofs.«125013_j57921928954039_2_alg».proof.Proof.Gen.KernelIdeal.Skeleton
import proofs.«125013_j57921928954039_2_alg».proof.Proof.SageSpec

noncomputable section

open scoped BigOperators

namespace Cert.KernelIdeal.BodyValue

open Idealize.ShloMosaic Idealize.ShloMosaic.ValueIdx Cert.KernelIdeal Cert.KernelIdeal.Gen Cert.Sage
open Cert.KernelIdeal.RegionValue

/-- The stored value at `(p, c)` of the block is the layer at `(p', c)` of the whole arrays, `p' = off + p`. -/
theorem pay_apply (v0 v3 : Vec Ideal S2000x256 .f32) (v5 v7 : Vec Ideal S256x256 .bf16) (v12 : Vec Ideal S1x256 .f32)
    (A X : (⟨2, ![100000, 256]⟩ : Shape).Idx → EReal) (Wl Wr : (⟨2, ![256, 256]⟩ : Shape).Idx → EReal)
    (b : (⟨1, ![256]⟩ : Shape).Idx → EReal)
    (off : ℕ) (p : Fin 2000) (p' : Fin 100000) (c : Fin 256) (hp : p'.val = off + p.val)
    (h0 : ∀ (u : S2000x256.Idx) (z : S100000x256.Idx), (z 0).val = off + (u 0).val → (z 1).val = (u 1).val → (v0 u : EReal) = A z)
    (h3 : ∀ (u : S2000x256.Idx) (z : S100000x256.Idx), (z 0).val = off + (u 0).val → (z 1).val = (u 1).val → (v3 u : EReal) = X z)
    (h5 : ∀ u : S256x256.Idx, (v5 u : EReal) = Wl u) (h7 : ∀ u : S256x256.Idx, (v7 u : EReal) = Wr u)
    (h12 : ∀ j : Fin 256, (v12 (ix2 (0 : Fin 1) j) : EReal) = b (ix1 j)) :
    (k0_pay1 (F := Ideal) v0 v3 v5 v7 v12 (ix2 p c) : EReal) = sage zlev A X Wl Wr b (ix2 p' c) := by
  unfold k0_pay1
  refine sage_congr ?_ ?_ ?_ rfl (h3 (ix2 p c) (ix2 p' c) hp rfl)
  · exact block_prod none _ _ A Wl off (ix2 p c) (ix2 p' c) hp rfl
      (fun u z a e => (congrFun (shapeCast_self v0 shapeCasts_S2000x256_S2000x256) u).trans (h0 u z a e))
      (fun u => (congrFun (shapeCast_self v5 shapeCasts_S256x256_S256x256) u).trans (h5 u))
  · exact block_prod none _ _ X Wr off (ix2 p c) (ix2 p' c) hp rfl
      (fun u z a e => h3 u z a e)
      (fun u => (congrFun (shapeCast_self v7 shapeCasts_S256x256_S256x256) u).trans (h7 u))
  · exact (broadcastTo_1b_ab_apply _ broadcasts_S1x256_S2000x256 p c).trans
      ((congrFun (shapeCast_self v12 shapeCasts_S1x256_S1x256) (ix2 (0 : Fin 1) c)).trans (h12 c))

end Cert.KernelIdeal.BodyValue

end
-- ==== Proof.HostPrefix.lean ====
/-
  WHAT THE REGION FINDS IN THE ARRAYS IT STAGES, at the ideal values.

  Before the region the host computes the aggregate (the scattered neighbour sums divided by the clamped neighbour
  counts), transposes the two weight arrays and converts them to a narrower float format, and reshapes the bias to one
  row.  The aggregate is, operation for operation, the reference's stage `%22`; a change of float format is the identity
  at the ideal values, so the two weight arrays are the reference's transposes `%23` and `%28`; the bias row is the
  bias vector cast to `[1, 256]`.  The feature array is an argument, untouched.
-/
import proofs.«125013_j57921928954039_2_alg».proof.Proof.Gen.KernelIdeal.Frame
import proofs.«125013_j57921928954039_2_alg».proof.Proof.Gen.ReferenceIdeal.Read
import Idealize.ShloMosaic.Lib.StableHlo.Run

noncomputable section

namespace Cert.KernelIdeal.HostValue

open Cert.KernelIdeal Cert.KernelIdeal.Gen Idealize.ShloMosaic Idealize.ShloMosaic.TcCoe Idealize.SL.Sem
open Idealize.ShloMosaic.StableHlo

variable (m : (ℓ : Loc nD τ sig) → Buf (Elt Ideal) ℓ)

set_option maxHeartbeats 2000000 in
/-- The aggregate the region stages is the reference's aggregate stage of the same arguments. -/
theorem V_agg (c : Dev nD) :
    (V m c main_v22 : S100000x256.Idx → EReal)
      = Cert.ReferenceIdeal.Read.val_main_v22 (F := Ideal) (m ((c : Thread nD τ).loc main_arg0)) (m ((c : Thread nD τ).loc main_arg1)) := by
  show StableHlo.after hostOps0 (fun b => m (c, b)) (Proc.devRef .tc main_v22) = _
  after_results_simp
  rfl

set_option maxHeartbeats 2000000 in
/-- The first weight array the region stages is the transpose of `W_l`. -/
theorem V_wl (c : Dev nD) :
    (V m c main_v24 : S256x256.Idx → EReal)
      = Cert.ReferenceIdeal.Read.val_main_v23 (F := Ideal) (m ((c : Thread nD τ).loc main_arg3)) := by
  show StableHlo.after hostOps0 (fun b => m (c, b)) (Proc.devRef .tc main_v24) = _
  after_results_simp
  rfl

set_option maxHeartbeats 2000000 in
/-- The second weight array the region stages is the transpose of `W_r`. -/
theorem V_wr (c : Dev nD) :
    (V m c main_v26 : S256x256.Idx → EReal)
      = Cert.ReferenceIdeal.Read.val_main_v28 (F := Ideal) (m ((c : Thread nD τ).loc main_arg5)) := by
  show StableHlo.after hostOps0 (fun b => m (c, b)) (Proc.devRef .tc main_v26) = _
  after_results_simp
  rfl

set_option maxHeartbeats 2000000 in
/-- The bias row the region stages is the bias vector cast to one row. -/
theorem V_bias (c : Dev nD) :
    (V m c main_v27 : S1x256.Idx → EReal)
      = shapeCast S1x256 (m ((c : Thread nD τ).loc main_arg4)) shapeCasts_S256_S1x256 := by
  show StableHlo.after hostOps0 (fun b => m (c, b)) (Proc.devRef .tc main_v27) = _
  after_results_simp
  rfl

end Cert.KernelIdeal.HostValue

end
-- ==== Proof.KernelValue.lean ====
/-
  THE KERNEL'S OUTPUT ARRAY, at the ideal values.

  The grid has 50 points; point `t` stages rows `2000 t … 2000 t + 1999` of the aggregate and of the features, the two
  weight arrays and the bias row whole, and writes back the same rows of the output.  Each block of the output is the
  layer of the staged blocks (the body's stored value read at an index), every row of the output lies in the block of the
  point `row / 2000`, so the output array ends holding the layer of the whole arrays.
-/
import proofs.«125013_j57921928954039_2_alg».proof.Proof.Gen.KernelIdeal.Value
import proofs.«125013_j57921928954039_2_alg».proof.Proof.KernelPayload
import proofs.«125013_j57921928954039_2_alg».proof.Proof.HostPrefix

noncomputable section

namespace Cert.KernelIdeal.ArrayValue

open Cert.KernelIdeal Cert.KernelIdeal.Gen Idealize.ShloMosaic Idealize.ShloMosaic.TcCoe Idealize.SL.Sem
open Idealize.ShloMosaic.ValueIdx Cert.Sage Cert.KernelIdeal.RegionValue Cert.KernelIdeal.HostValue Cert.KernelIdeal.BodyValue
open Idealize.ShloMosaic.Pipeline (Dat)

variable (m : (ℓ : Loc nD τ sig) → Buf (Elt Ideal) ℓ) (ρ : Dev nD → PrngReg)

/-- The layer of the whole arrays: the aggregate of the features and the edge list, the features, the two transposed
    weights, the bias. -/
def result (c : Dev nD) : S100000x256.Idx → EReal :=
  sage zlev
    (Cert.ReferenceIdeal.Read.val_main_v22 (F := Ideal) (m ((c : Thread nD τ).loc main_arg0)) (m ((c : Thread nD τ).loc main_arg1)))
    (m ((c : Thread nD τ).loc main_arg0))
    (Cert.ReferenceIdeal.Read.val_main_v23 (F := Ideal) (m ((c : Thread nD τ).loc main_arg3)))
    (Cert.ReferenceIdeal.Read.val_main_v28 (F := Ideal) (m ((c : Thread nD τ).loc main_arg5)))
    (m ((c : Thread nD τ).loc main_arg4))

/-- The index maps over the grid: the row-blocked windows sit at block row `t`, the whole ones at block `(0, 0)`. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- The aggregate's block at point `t`: rows `2000 t …` of the aggregate. -/
theorem blk_agg (c : Dev nD) (t : Fin cfg0.N) (u : S2000x256.Idx) (z : S100000x256.Idx)
    (h0 : (z 0).val = t.val * 2000 + (u 0).val) (h1 : (z 1).val = (u 1).val) :
    (iblk m c 0 t u : EReal)
      = Cert.ReferenceIdeal.Read.val_main_v22 (F := Ideal) (m ((c : Thread nD τ).loc main_arg0)) (m ((c : Thread nD τ).loc main_arg1)) z := by
  obtain ⟨e0, e1, -⟩ := idx_facts t
  unfold iblk
  rw [View.read_apply]
  show (V m c main_v22 : S100000x256.Idx → EReal) _ = _
  rw [V_agg]
  congr 1
  funext a
  apply Fin.ext
  match a with
  | ⟨0, _⟩ => show win0_0.index t 0 * 2000 + 1 * (u 0).val = (z 0).val; rw [e0, h0]; omega
  | ⟨1, _⟩ => show win0_0.index t 1 * 256 + 1 * (u 1).val = (z 1).val; rw [e1, h1]; omega

/-- The features' block at point `t`: rows `2000 t …` of the feature array, an argument the host leaves as launched. -/
theorem blk_x (c : Dev nD) (t : Fin cfg0.N) (u : S2000x256.Idx) (z : S100000x256.Idx)
    (h0 : (z 0).val = t.val * 2000 + (u 0).val) (h1 : (z 1).val = (u 1).val) :
    (iblk m c 1 t u : EReal) = (m ((c : Thread nD τ).loc main_arg0) : S100000x256.Idx → EReal) z := by
  obtain ⟨-, -, e0, e1, -⟩ := idx_facts t
  unfold iblk
  rw [View.read_apply]
  show (V m c main_arg0 : S100000x256.Idx → EReal) _ = _
  rw [V_main_arg0]
  congr 1
  funext a
  apply Fin.ext
  match a with
  | ⟨0, _⟩ => show win0_1.index t 0 * 2000 + 1 * (u 0).val = (z 0).val; rw [e0, h0]; omega
  | ⟨1, _⟩ => show win0_1.index t 1 * 256 + 1 * (u 1).val = (z 1).val; rw [e1, h1]; omega

/-- The first weight block at every point: the whole transposed `W_l`. -/
theorem blk_wl (c : Dev nD) (t : Fin cfg0.N) (u : S256x256.Idx) :
    (iblk m c 2 t u : EReal) = Cert.ReferenceIdeal.Read.val_main_v23 (F := Ideal) (m ((c : Thread nD τ).loc main_arg3)) u := by
  obtain ⟨-, -, -, -, e0, e1, -⟩ := idx_facts t
  unfold iblk
  rw [View.read_apply]
  show (V m c main_v24 : S256x256.Idx → EReal) _ = _
  rw [V_wl]
  congr 1
  funext a
  apply Fin.ext
  match a with
  | ⟨0, _⟩ => show win0_2.index t 0 * 256 + 1 * (u 0).val = (u 0).val; rw [e0]; omega
  | ⟨1, _⟩ => show win0_2.index t 1 * 256 + 1 * (u 1).val = (u 1).val; rw [e1]; omega

/-- The second weight block at every point: the whole transposed `W_r`. -/
theorem blk_wr (c : Dev nD) (t : Fin cfg0.N) (u : S256x256.Idx) :
    (iblk m c 4 t u : EReal) = Cert.ReferenceIdeal.Read.val_main_v28 (F := Ideal) (m ((c : Thread nD τ).loc main_arg5)) u := by
  obtain ⟨-, -, -, -, -, -, -, -, e0, e1, -⟩ := idx_facts t
  unfold iblk
  rw [View.read_apply]
  show (V m c main_v26 : S256x256.Idx → EReal) _ = _
  rw [V_wr]
  congr 1
  funext a
  apply Fin.ext
  match a with
  | ⟨0, _⟩ => show win0_4.index t 0 * 256 + 1 * (u 0).val = (u 0).val; rw [e0]; omega
  | ⟨1, _⟩ => show win0_4.index t 1 * 256 + 1 * (u 1).val = (u 1).val; rw [e1]; omega

/-- The bias block at every point: the bias vector as one row. -/
theorem blk_bias (c : Dev nD) (t : Fin cfg0.N) (j : Fin 256) :
    (iblk m c 3 t (ix2 (0 : Fin 1) j) : EReal) = (m ((c : Thread nD τ).loc main_arg4) : S256.Idx → EReal) (ix1 j) := by
  obtain ⟨-, -, -, -, -, -, e0, e1, -⟩ := idx_facts t
  unfold iblk
  rw [View.read_apply]
  show (V m c main_v27 : S1x256.Idx → EReal) _ = _
  rw [V_bias]
  refine (congrArg _ (?_ : _ = ix2 (0 : Fin 1) j)).trans (shapeCast_a_1a_apply _ shapeCasts_S256_S1x256 0 j)
  funext a
  apply Fin.ext
  match a with
  | ⟨0, _⟩ => show win0_3.index t 0 * 1 + 1 * 0 = 0; rw [e0]
  | ⟨1, _⟩ => show win0_3.index t 1 * 256 + 1 * j.val = j.val; rw [e1]; omega

/-- What point `t` writes back is block `t` of the layer of the whole arrays. -/
theorem flushed_eq (c : Dev nD) (t : Fin cfg0.N) :
    (dats m 0 c).flushed 5 t = ((cfg0.win 5).blk t).view.read (Elt Ideal) (result m c) := by
  rw [Cert.KernelIdeal.Value.flushed5]
  unfold out0_5
  rw [View.canon_unit_zero off2_zero]
  simp only [View.ld_unit_zero (S := S2000x256) off2_zero, View.ld_unit_zero (S := S256x256) off2_zero,
    View.ld_unit_zero (S := S1x256) off2_zero]
  obtain ⟨-, -, -, -, -, -, -, -, -, -, e0, e1⟩ := idx_facts t
  funext j
  show k0_pay1 (F := Ideal) (iblk m c 0 t) (iblk m c 1 t) (iblk m c 2 t) (iblk m c 4 t) (iblk m c 3 t) j
    = result m c (((cfg0.win 5).blk t).view.emb j)
  have hj0 : (j 0).val < 2000 := (j 0).isLt
  have ht : t.val < 50 := t.isLt
  have hlt : t.val * 2000 + (j 0).val < 100000 := by omega
  have hemb : ((cfg0.win 5).blk t).view.emb j = ix2 (⟨t.val * 2000 + (j 0).val, hlt⟩ : Fin 100000) (j 1) := by
    funext a
    apply Fin.ext
    match a with
    | ⟨0, _⟩ => show win0_5.index t 0 * 2000 + 1 * (j 0).val = t.val * 2000 + (j 0).val; rw [e0]; omega
    | ⟨1, _⟩ => show win0_5.index t 1 * 256 + 1 * (j 1).val = (j 1).val; rw [e1]; omega
  rw [hemb]
  exact (congrArg (k0_pay1 (F := Ideal) (iblk m c 0 t) (iblk m c 1 t) (iblk m c 2 t) (iblk m c 4 t) (iblk m c 3 t)) (eq_ix2 j)).trans
    (pay_apply (iblk m c 0 t) (iblk m c 1 t) (iblk m c 2 t) (iblk m c 4 t) (iblk m c 3 t)
      (Cert.ReferenceIdeal.Read.val_main_v22 (F := Ideal) (m ((c : Thread nD τ).loc main_arg0)) (m ((c : Thread nD τ).loc main_arg1)))
      (m ((c : Thread nD τ).loc main_arg0))
      (Cert.ReferenceIdeal.Read.val_main_v23 (F := Ideal) (m ((c : Thread nD τ).loc main_arg3)))
      (Cert.ReferenceIdeal.Read.val_main_v28 (F := Ideal) (m ((c : Thread nD τ).loc main_arg5)))
      (m ((c : Thread nD τ).loc main_arg4))
      (t.val * 2000) (j 0) ⟨t.val * 2000 + (j 0).val, hlt⟩ (j 1) rfl
      (blk_agg m c t) (blk_x m c t) (blk_wl m c t) (blk_wr m c t) (blk_bias m c t))

/-- An index of the output array is in point `t`'s block iff each coordinate is in the block's range on its axis. -/
theorem mem_blk (t : Fin cfg0.N) (i : S100000x256.Idx) :
    i ∈ ((cfg0.win 5).blk t).view.set
      ↔ ∀ a : Fin 2, win0_5.index t a * S2000x256.size a ≤ (i a).val ∧ (i a).val < win0_5.index t a * S2000x256.size a + S2000x256.size a := by
  show i ∈ ((View.whole main_v28).slice (win0_5.rect t)).set ↔ _
  rw [View.set_slice_whole, Rect.mem_set_unit]
  exact Iff.rfl

/-- Every index of the output array is in the block of the point `row / 2000`, which writes back. -/
theorem covered (i : S100000x256.Idx) :
    ∃ t : Fin cfg0.N, (cfg0.win 5).flush t = true ∧ i ∈ ((cfg0.win 5).blk t).view.set := by
  have hi0 : (i 0).val < 100000 := (i 0).isLt
  have hi1 : (i 1).val < 256 := (i 1).isLt
  have hN : (i 0).val / 2000 < cfg0.N := by
    show (i 0).val / 2000 < 50
    omega
  obtain ⟨-, -, -, -, -, -, -, -, -, -, e0, e1⟩ := idx_facts ⟨(i 0).val / 2000, hN⟩
  refine ⟨⟨(i 0).val / 2000, hN⟩, flush0_5 _, ?_⟩
  rw [mem_blk]
  intro a
  match a with
  | ⟨0, _⟩ =>
    show win0_5.index ⟨(i 0).val / 2000, hN⟩ (0 : Fin 2) * 2000 ≤ (i 0).val
      ∧ (i 0).val < win0_5.index ⟨(i 0).val / 2000, hN⟩ (0 : Fin 2) * 2000 + 2000
    rw [e0]
    show (i 0).val / 2000 * 2000 ≤ (i 0).val ∧ (i 0).val < (i 0).val / 2000 * 2000 + 2000
    omega
  | ⟨1, _⟩ =>
    show win0_5.index ⟨(i 0).val / 2000, hN⟩ (1 : Fin 2) * 256 ≤ (i 1).val
      ∧ (i 1).val < win0_5.index ⟨(i 0).val / 2000, hN⟩ (1 : Fin 2) * 256 + 256
    rw [e1]
    omega

/-- The output array after the run: the layer of the whole arrays. -/
theorem final (c : Dev nD) : (dats m 0 c).arrAt 5 cfg0.N = result m c :=
  (dats m 0 c).arrAt_eq_of_cover 5 (result m c) (fun t _ => flushed_eq m c t) covered

/-- The kernel's run with its result named: the layer of the whole arrays, the arguments unchanged. -/
theorem run : θ_run defs (onTc (τ := τ) (main (F := Ideal))) ⟨m, fun _ => 0, ρ⟩ fun r => ∀ c : Dev nD,
      r.2.mem ((c : Thread nD τ).loc main_v28) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨(h c).1.trans (final m c), (h c).2⟩)
    (Cert.KernelIdeal.Value.run_blocks m ρ)

end Cert.KernelIdeal.ArrayValue

end
-- ==== Proof.RefIsSage.lean ====
/-
  THE REFERENCE'S RESULT IS THE LAYER OF ITS OWN AGGREGATE.

  The reference divides the scattered neighbour sums by the clamped neighbour counts (the aggregate, stage `%22`),
  multiplies it by the transposed `W_l`, adds the bias row, adds the features times the transposed `W_r`, rectifies
  and adds the features back.  Read at `(p, c)` through the stage-by-stage lemmas this is
  `max (((∑ k, agg (p, k) · W_lᵀ (k, c)) + b c) + ∑ k, x (p, k) · W_rᵀ (k, c)) 0 + x (p, c)`: the layer with the bias added
  before the second product, equal to the layer by commutativity and associativity of the sum of three terms.  The
  aggregate and the two transposes are kept whole: nothing inside them is read.
-/
import proofs.«125013_j57921928954039_2_alg».proof.Proof.Gen.ReferenceIdeal.Read
import proofs.«125013_j57921928954039_2_alg».proof.Proof.SageSpec

noncomputable section

open scoped BigOperators

namespace Cert.ReferenceIdeal.RefValue

open Idealize.ShloMosaic Idealize.ShloMosaic.ValueIdx Cert.ReferenceIdeal Cert.ReferenceIdeal.Read Cert.Sage
open Cert.KernelIdeal.RegionValue

/-- The reference's last stage is the layer of the aggregate stage, the features, the two transposed weights and the
    bias. -/
theorem ref_is_sage (x0 : (⟨S100000x256, .f32⟩ : BufTy).Contents (Elt Ideal)) (x1 : (⟨S2x300000, .i32⟩ : BufTy).Contents (Elt Ideal))
    (x3 : (⟨S256x256, .f32⟩ : BufTy).Contents (Elt Ideal)) (x4 : (⟨S256, .f32⟩ : BufTy).Contents (Elt Ideal))
    (x5 : (⟨S256x256, .f32⟩ : BufTy).Contents (Elt Ideal)) :
    val_main_v32 (F := Ideal) x0 x1 x3 x4 x5
      = sage zlev (val_main_v22 (F := Ideal) x0 x1) x0 (val_main_v23 (F := Ideal) x3) (val_main_v28 (F := Ideal) x5) x4 := by
  funext i
  obtain ⟨p, c, rfl⟩ : ∃ (p : Fin 100000) (c : Fin 256), i = ix2 p c := ⟨i 0, i 1, eq_ix2 i⟩
  rw [val_main_v32_apply, val_main_v31_apply, val_main_v30_apply, val_main_v27_apply, val_main_v24_apply, val_main_v29_apply,
    val_main_v26_apply, val_main_v25_apply, val_main_call0_v0_apply, val_main_call0_cst_apply]
  have el : ∀ k : Fin 256, lidx_main_v24 (ix2 p c) k = ix2 p k := fun k => funext fun a => Fin.ext (by
    match a with
    | ⟨0, _⟩ => rfl
    | ⟨1, _⟩ => rfl)
  have er : ∀ k : Fin 256, ridx_main_v24 (ix2 p c) k = ix2 k c := fun k => funext fun a => Fin.ext (by
    match a with
    | ⟨0, _⟩ => rfl
    | ⟨1, _⟩ => rfl)
  have el' : ∀ k : Fin 256, lidx_main_v29 (ix2 p c) k = ix2 p k := fun k => funext fun a => Fin.ext (by
    match a with
    | ⟨0, _⟩ => rfl
    | ⟨1, _⟩ => rfl)
  have er' : ∀ k : Fin 256, ridx_main_v29 (ix2 p c) k = ix2 k c := fun k => funext fun a => Fin.ext (by
    match a with
    | ⟨0, _⟩ => rfl
    | ⟨1, _⟩ => rfl)
  have eb : idx_main_v25 (idx_main_v26 (ix2 p c)) = ix1 c := funext fun a => Fin.ext (by
    match a with
    | ⟨0, _⟩ => rfl)
  refine sage_congr' ?_ ?_ ?_ rfl rfl
  · exact Finset.sum_congr rfl fun k _ => by rw [el k, er k]
  · exact Finset.sum_congr rfl fun k _ => by rw [el' k, er' k]
  · exact congrArg x4 eb

end Cert.ReferenceIdeal.RefValue

end
-- ==== Proof.lean ====
/- The proof of `Cert.Claim` for the mean-neighbour graph layer
   `out = max (agg · W_lᵀ + x · W_rᵀ + b) 0 + x`, `agg` the mean of each node's in-neighbours' features.

   Both programs compute the aggregate on the host by the same operations (a gather of the source rows, a scatter-add
   into the target rows, a scatter-add of ones for the counts, a division by the counts clamped below at one), so the
   aggregate is never opened: it is one array `agg` on both sides.  The kernel then computes the dense part block of
   2000 rows by block, both products before the bias; the reference computes it on whole arrays, the bias between the
   products.  At the ideal values a change of float format is the identity and a product is the plain sum over the
   contracted axis, so both results are, index by index, the layer `Cert.Sage.sage` of `agg`, `x`, the two transposed
   weights and the bias — the kernel's because a row of the output depends on the same row of `agg` and `x` only
   (Proof/KernelPayload.lean, Proof/KernelValue.lean), the reference's after moving the bias across the second
   product by commutativity and associativity of addition on the extended reals (Proof/RefIsSage.lean).  No sum is
   distributed or cancelled, so the finiteness of the inputs is not used.
   The three frames are the generated ones (the reference's is its generated run with the result dropped); the
   idealization rewrote nothing, so `preserves` is `True`. -/
import proofs.«125013_j57921928954039_2_alg».proof.Defs
import proofs.«125013_j57921928954039_2_alg».proof.Proof.Gen.Kernel
import proofs.«125013_j57921928954039_2_alg».proof.Proof.Gen.Kernel.Skeleton
import proofs.«125013_j57921928954039_2_alg».proof.Proof.Gen.Kernel.Launch
import proofs.«125013_j57921928954039_2_alg».proof.Proof.Gen.Kernel.Points
import proofs.«125013_j57921928954039_2_alg».proof.Proof.Gen.Kernel.Frame
import proofs.«125013_j57921928954039_2_alg».proof.Proof.Gen.KernelIdeal
import proofs.«125013_j57921928954039_2_alg».proof.Proof.Gen.KernelIdeal.Skeleton
import proofs.«125013_j57921928954039_2_alg».proof.Proof.Gen.KernelIdeal.Launch
import proofs.«125013_j57921928954039_2_alg».proof.Proof.Gen.KernelIdeal.Points
import proofs.«125013_j57921928954039_2_alg».proof.Proof.Gen.KernelIdeal.Frame
import proofs.«125013_j57921928954039_2_alg».proof.Proof.Gen.ReferenceIdeal
import proofs.«125013_j57921928954039_2_alg».proof.Proof.Gen.Pre_finite_inputs
import proofs.«125013_j57921928954039_2_alg».proof.Proof.Gen.KernelIdeal.Value
import proofs.«125013_j57921928954039_2_alg».proof.Proof.Gen.ReferenceIdeal.Run
import proofs.«125013_j57921928954039_2_alg».proof.Proof.Gen.ReferenceIdeal.Read
import proofs.«125013_j57921928954039_2_alg».proof.Proof.KernelValue
import proofs.«125013_j57921928954039_2_alg».proof.Proof.RefIsSage
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference has no region: its frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- The kernel's output array ends at the layer of its arguments (block by block), the reference's result at the same
    layer of its own (stage by stage); the arguments agree. -/
theorem algebraic : Cert.algebraic_KernelIdeal_ReferenceIdeal := by
  intro m ρ m' ρ' _ hagree
  refine ⟨fun c => Cert.KernelIdeal.ArrayValue.result m c, Cert.KernelIdeal.ArrayValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v32_eq, Cert.ReferenceIdeal.RefValue.ref_is_sage,
    (hagree c).1, (hagree c).2.1, (hagree c).2.2.2.1, (hagree c).2.2.2.2.1, (hagree c).2.2.2.2.2]
  rfl

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
